-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S27x64x64 : Shape := ⟨3, ![27, 64, 64]⟩
abbrev S64 : Shape := ⟨1, ![64]⟩
abbrev S1350000 : Shape := ⟨1, ![1350000]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_
  bcast_S_S64 : S_.BroadcastsInDim S64 (![] : Fin 0 → Fin S64.rank)
  reducesTo_S64_S_d0 : S64.ReducesTo [0] S_

variable [Facts]

def fn {F : FTy → Type} [FloatOps F] (main_arg0 : FVec F S150000x64 .f32) (main_arg1 : FVec F S27x64x64 .f32) (main_arg2 : FVec F S64 .f32) (main_arg3 : IVec S1350000 32) (main_arg4 : IVec S1350000 32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S27x64x64 .f32 := Host.absf main_arg1
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S150000x64 : Shape := ⟨2, ![150000, 64]⟩
abbrev S27x64x64 : Shape := ⟨3, ![27, 64, 64]⟩
abbrev S64 : Shape := ⟨1, ![64]⟩
abbrev S1350000 : Shape := ⟨1, ![1350000]⟩
abbrev S_ : Shape := ⟨0, ![]⟩
abbrev S27x64x128 : Shape := ⟨3, ![27, 64, 128]⟩
abbrev S27x128x128 : Shape := ⟨3, ![27, 128, 128]⟩
abbrev S1350000x1 : Shape := ⟨2, ![1350000, 1]⟩
abbrev S1350000x64 : Shape := ⟨2, ![1350000, 64]⟩
abbrev S27x50000x64 : Shape := ⟨3, ![27, 50000, 64]⟩
abbrev S27x25000x128 : Shape := ⟨3, ![27, 25000, 128]⟩
abbrev S1x5000x128 : Shape := ⟨3, ![1, 5000, 128]⟩
abbrev S1x128x128 : Shape := ⟨3, ![1, 128, 128]⟩
abbrev S5000x128 : Shape := ⟨2, ![5000, 128]⟩
abbrev S128x128 : Shape := ⟨2, ![128, 128]⟩
abbrev S1x64 : Shape := ⟨2, ![1, 64]⟩

abbrev nBuf : Space → Nat
  | .hbm => 38
  | .vmem => 6
  | .smem => 0
  | _ => 0

abbrev bufTy : (tb : Table) → Fin (tcTables nBuf tb) → BufTy
  | .hbm, ⟨0, _⟩ => ⟨S150000x64, .f32⟩
  | .hbm, ⟨1, _⟩ => ⟨S27x64x64, .f32⟩
  | .hbm, ⟨2, _⟩ => ⟨S64, .f32⟩
  | .hbm, ⟨3, _⟩ => ⟨S1350000, .i32⟩
  | .hbm, ⟨4, _⟩ => ⟨S1350000, .i32⟩
  | .hbm, ⟨5, _⟩ => ⟨S150000x64, .bf16⟩
  | .hbm, ⟨6, _⟩ => ⟨S_, .f32⟩
  | .hbm, ⟨7, _⟩ => ⟨S27x64x64, .f32⟩
  | .hbm, ⟨8, _⟩ => ⟨S27x64x128, .f32⟩
  | .hbm, ⟨9, _⟩ => ⟨S27x64x128, .f32⟩
  | .hbm, ⟨10, _⟩ => ⟨S27x128x128, .f32⟩
  | .hbm, ⟨11, _⟩ => ⟨S27x128x128, .bf16⟩
  | .hbm, ⟨12, _⟩ => ⟨S_, .i32⟩
  | .hbm, ⟨13, _⟩ => ⟨S1350000, .i32⟩
  | .hbm, ⟨14, _⟩ => ⟨S1350000, .i1⟩
  | .hbm, ⟨15, _⟩ => ⟨S_, .i32⟩
  | .hbm, ⟨16, _⟩ => ⟨S1350000, .i32⟩
  | .hbm, ⟨17, _⟩ => ⟨S1350000, .i32⟩
  | .hbm, ⟨18, _⟩ => ⟨S1350000, .i32⟩
  | .hbm, ⟨19, _⟩ => ⟨S1350000x1, .i32⟩
  | .hbm, ⟨20, _⟩ => ⟨S1350000x64, .bf16⟩
  | .hbm, ⟨21, _⟩ => ⟨S27x50000x64, .bf16⟩
  | .hbm, ⟨22, _⟩ => ⟨S27x25000x128, .bf16⟩
  | .hbm, ⟨23, _⟩ => ⟨S27x25000x128, .bf16⟩
  | .hbm, ⟨24, _⟩ => ⟨S27x50000x64, .bf16⟩
  | .hbm, ⟨25, _⟩ => ⟨S1350000x64, .bf16⟩
  | .hbm, ⟨26, _⟩ => ⟨S1350000x64, .f32⟩
  | .hbm, ⟨27, _⟩ => ⟨S1x64, .f32⟩
  | .hbm, ⟨28, _⟩ => ⟨S150000x64, .f32⟩
  | .hbm, ⟨29, _⟩ => ⟨S_, .i32⟩
  | .hbm, ⟨30, _⟩ => ⟨S1350000, .i32⟩
  | .hbm, ⟨31, _⟩ => ⟨S1350000, .i1⟩
  | .hbm, ⟨32, _⟩ => ⟨S_, .i32⟩
  | .hbm, ⟨33, _⟩ => ⟨S1350000, .i32⟩
  | .hbm, ⟨34, _⟩ => ⟨S1350000, .i32⟩
  | .hbm, ⟨35, _⟩ => ⟨S1350000, .i32⟩
  | .hbm, ⟨36, _⟩ => ⟨S1350000x1, .i32⟩
  | .hbm, ⟨37, _⟩ => ⟨S150000x64, .f32⟩
  | .local _ .vmem, ⟨0, _⟩ => ⟨S1x5000x128, .bf16⟩
  | .local _ .vmem, ⟨1, _⟩ => ⟨S1x5000x128, .bf16⟩
  | .local _ .vmem, ⟨2, _⟩ => ⟨S1x128x128, .bf16⟩
  | .local _ .vmem, ⟨3, _⟩ => ⟨S1x128x128, .bf16⟩
  | .local _ .vmem, ⟨4, _⟩ => ⟨S1x5000x128, .bf16⟩
  | .local _ .vmem, ⟨5, _⟩ => ⟨S1x5000x128, .bf16⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![27, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  bcast_S_S27x64x64 : S_.BroadcastsInDim S27x64x64 (![] : Fin 0 → Fin S27x64x64.rank)
  concatenates_S27x64x64_S27x64x64_S27x64x128_d2 : Shape.Concatenates [S27x64x64, S27x64x64] S27x64x128 2
  concatenates_S27x64x128_S27x64x128_S27x128x128_d1 : Shape.Concatenates [S27x64x128, S27x64x128] S27x128x128 1
  bcast_S_S1350000 : S_.BroadcastsInDim S1350000 (![] : Fin 0 → Fin S1350000.rank)
  bcast_S1350000_S1350000x1_0 : S1350000.BroadcastsInDim S1350000x1 (![0] : Fin 1 → Fin S1350000x1.rank)
  shapeCasts_S1350000x64_S27x50000x64 : S1350000x64.ShapeCasts S27x50000x64
  shapeCasts_S27x50000x64_S27x25000x128 : S27x50000x64.ShapeCasts S27x25000x128
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S5000x128_S1x5000x128 : S5000x128.ShapeCasts S1x5000x128
  packedbf16_S1x5000x128_S1x5000x128_0_0_0 : (Rect.unit (s := S1x5000x128) ![0, 0, 0] S1x5000x128.size inb_S1x5000x128_S1x5000x128_0_0_0).PackedRows (EltTy.packing .bf16)
  shapeCasts_S27x25000x128_S27x50000x64 : S27x25000x128.ShapeCasts S27x50000x64
  shapeCasts_S27x50000x64_S1350000x64 : S27x50000x64.ShapeCasts S1350000x64
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  gather_S150000x64_S1350000x1_S1350000x64_1_0_n_n_0_1_164_wf : GatherDims.WF S150000x64 S1350000x1 S1350000x64 [1] [0] [] [0] [] 1 ![1, 64]
  dot_S5000x128_S128x128_S5000x128_1_0_0_1_n_n_wf : DotDims.WF S5000x128 S128x128 S5000x128 [1] [0] [0] [1] [] []
  scatter_S150000x64_S1350000x1_S1350000x64_1_0_0_1_wf : ScatterDims.WF S150000x64 S1350000x1 S1350000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x128.size a ≤ S27x25000x128.size a
  hwx0_0 : ∀ i : grid0.Coords, EltTy.bits .bf16 = 32 ∨ (Rect.block (s := S27x25000x128) S1x5000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S27x128x128.size a
  hwx0_1 : ∀ i : grid0.Coords, EltTy.bits .bf16 = 32 ∨ (Rect.block (s := S27x128x128) S1x128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5000x128.size a ≤ S27x25000x128.size a
  hwx0_2 : ∀ i : grid0.Coords, EltTy.bits .bf16 = 32 ∨ (Rect.block (s := S27x25000x128) S1x5000x128.size (cc0_transform_2 i) (hinb0_2 i)).WholeWords (EltTy.packing .bf16)

variable [Facts₀]

def gather_S150000x64_S1350000x1_S1350000x64_1_0_n_n_0_1_164 : GatherDims S150000x64 S1350000x1 S1350000x64 where
  offsetDims := [1]
  collapsedSliceDims := [0]
  operandBatchingDims := []
  startIndicesBatchingDims := []
  startIndexMap := [0]
  indexVectorDim := 1
  sliceSizes := ![1, 64]
  wf := gather_S150000x64_S1350000x1_S1350000x64_1_0_n_n_0_1_164_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S150000x64_S1350000x1_S1350000x64_1_0_0_1 : ScatterDims S150000x64 S1350000x1 S1350000x64 where
  updateWindowDims := [1]
  insertedWindowDims := [0]
  scatterDimsToOperandDims := [0]
  indexVectorDim := 1
  wf := scatter_S150000x64_S1350000x1_S1350000x64_1_0_0_1_wf

abbrev win0_0 : Pipeline.Window sig grid0 :=
  Pipeline.Window.ofSpec (Memref.whole main_v14) S1x5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S150000x64 : Shape := ⟨2, ![150000, 64]⟩
abbrev S27x64x64 : Shape := ⟨3, ![27, 64, 64]⟩
abbrev S64 : Shape := ⟨1, ![64]⟩
abbrev S1350000 : Shape := ⟨1, ![1350000]⟩
abbrev S_ : Shape := ⟨0, ![]⟩
abbrev S1350000x1 : Shape := ⟨2, ![1350000, 1]⟩
abbrev S1350000x64 : Shape := ⟨2, ![1350000, 64]⟩
abbrev S27x50000x64 : Shape := ⟨3, ![27, 50000, 64]⟩
abbrev S1x64 : Shape := ⟨2, ![1, 64]⟩

abbrev nBuf : Space → Nat
  | .hbm => 31
  | .vmem => 0
  | .smem => 0
  | _ => 0

abbrev bufTy : (tb : Table) → Fin (tcTables nBuf tb) → BufTy
  | .hbm, ⟨0, _⟩ => ⟨S150000x64, .f32⟩
  | .hbm, ⟨1, _⟩ => ⟨S27x64x64, .f32⟩
  | .hbm, ⟨2, _⟩ => ⟨S64, .f32⟩
  | .hbm, ⟨3, _⟩ => ⟨S1350000, .i32⟩
  | .hbm, ⟨4, _⟩ => ⟨S1350000, .i32⟩
  | .hbm, ⟨5, _⟩ => ⟨S_, .i32⟩
  | .hbm, ⟨6, _⟩ => ⟨S1350000, .i32⟩
  | .hbm, ⟨7, _⟩ => ⟨S1350000, .i1⟩
  | .hbm, ⟨8, _⟩ => ⟨S_, .i32⟩
  | .hbm, ⟨9, _⟩ => ⟨S1350000, .i32⟩
  | .hbm, ⟨10, _⟩ => ⟨S1350000, .i32⟩
  | .hbm, ⟨11, _⟩ => ⟨S1350000, .i32⟩
  | .hbm, ⟨12, _⟩ => ⟨S1350000x1, .i32⟩
  | .hbm, ⟨13, _⟩ => ⟨S1350000x64, .f32⟩
  | .hbm, ⟨14, _⟩ => ⟨S27x50000x64, .f32⟩
  | .hbm, ⟨15, _⟩ => ⟨S27x50000x64, .f32⟩
  | .hbm, ⟨16, _⟩ => ⟨S_, .f32⟩
  | .hbm, ⟨17, _⟩ => ⟨S150000x64, .f32⟩
  | .hbm, ⟨18, _⟩ => ⟨S1350000x64, .f32⟩
  | .hbm, ⟨19, _⟩ => ⟨S_, .i32⟩
  | .hbm, ⟨20, _⟩ => ⟨S1350000, .i32⟩
  | .hbm, ⟨21, _⟩ => ⟨S1350000, .i1⟩
  | .hbm, ⟨22, _⟩ => ⟨S_, .i32⟩
  | .hbm, ⟨23, _⟩ => ⟨S1350000, .i32⟩
  | .hbm, ⟨24, _⟩ => ⟨S1350000, .i32⟩
  | .hbm, ⟨25, _⟩ => ⟨S1350000, .i32⟩
  | .hbm, ⟨26, _⟩ => ⟨S1350000x1, .i32⟩
  | .hbm, ⟨27, _⟩ => ⟨S150000x64, .f32⟩
  | .hbm, ⟨28, _⟩ => ⟨S1x64, .f32⟩
  | .hbm, ⟨29, _⟩ => ⟨S150000x64, .f32⟩
  | .hbm, ⟨30, _⟩ => ⟨S150000x64, .f32⟩
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S_S1350000 : S_.BroadcastsInDim S1350000 (![] : Fin 0 → Fin S1350000.rank)
  bcast_S1350000_S1350000x1_0 : S1350000.BroadcastsInDim S1350000x1 (![0] : Fin 1 → Fin S1350000x1.rank)
  shapeCasts_S1350000x64_S27x50000x64 : S1350000x64.ShapeCasts S27x50000x64
  bcast_S_S150000x64 : S_.BroadcastsInDim S150000x64 (![] : Fin 0 → Fin S150000x64.rank)
  shapeCasts_S27x50000x64_S1350000x64 : S27x50000x64.ShapeCasts S1350000x64
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  gather_S150000x64_S1350000x1_S1350000x64_1_0_n_n_0_1_164_wf : GatherDims.WF S150000x64 S1350000x1 S1350000x64 [1] [0] [] [0] [] 1 ![1, 64]
  dot_S27x50000x64_S27x64x64_S27x50000x64_2_1_1_2_0_0_wf : DotDims.WF S27x50000x64 S27x64x64 S27x50000x64 [2] [1] [1] [2] [0] [0]
  scatter_S150000x64_S1350000x1_S1350000x64_1_0_0_1_wf : ScatterDims.WF S150000x64 S1350000x1 S1350000x64 [1] [0] [0] 1

variable [Facts₀]

def gather_S150000x64_S1350000x1_S1350000x64_1_0_n_n_0_1_164 : GatherDims S150000x64 S1350000x1 S1350000x64 where
  offsetDims := [1]
  collapsedSliceDims := [0]
  operandBatchingDims := []
  startIndicesBatchingDims := []
  startIndexMap := [0]
  indexVectorDim := 1
  sliceSizes := ![1, 64]
  wf := gather_S150000x64_S1350000x1_S1350000x64_1_0_n_n_0_1_164_wf
def dot_S27x50000x64_S27x64x64_S27x50000x64_2_1_1_2_0_0 : DotDims S27x50000x64 S27x64x64 S27x50000x64 where
  lhsContracting := [2]
  rhsContracting := [1]
  lhsNonContracting := [1]
  rhsNonContracting := [2]
  lhsBatch := [0]
  rhsBatch := [0]
  wf := dot_S27x50000x64_S27x64x64_S27x50000x64_2_1_1_2_0_0_wf
def scatter_S150000x64_S1350000x1_S1350000x64_1_0_0_1 : ScatterDims S150000x64 S1350000x1 S1350000x64 where
  updateWindowDims := [1]
  insertedWindowDims := [0]
  scatterDimsToOperandDims := [0]
  indexVectorDim := 1
  wf := scatter_S150000x64_S1350000x1_S1350000x64_1_0_0_1_wf

class Facts : Prop extends Facts₀ where

variable [Facts]
-- ==== Proof.KernelPayload.lean ====
/-
  The kernel body's one stored value, read at an index.

  The body loads a [1, 5000, 128] block of packed gathered rows and the [1, 128, 128] block-diagonal weight of the
  block's kernel offset, multiplies them on the matrix unit into a zero accumulator, and stores the product. On the
  extended reals the accumulator contributes `0 +`, a change of float format is the identity, and dropping or adding the
  leading unit axis keeps the row-major position: entry (0, r, p) of the stored block is
  `∑ q < 128, rows (0, r, q) · weight (0, q, p)`.
-/
import proofs.«141573_j88373247082550_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The body's matrix product: [5000, 128] × [128, 128], contracting the lanes of the left with the rows of the right. -/
abbrev D := dot_S5000x128_S128x128_S5000x128_1_0_0_1_n_n

theorem lhs0 (i : S5000x128.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem lhs1 (i : S5000x128.Idx) (q : D.contr.Idx) : (D.lhsIdx i q 1).val = (q ⟨0, by decide⟩).val :=
  D.lhsIdx_val_of_single rfl i q
theorem rhs0 (i : S5000x128.Idx) (q : D.contr.Idx) : (D.rhsIdx i q 0).val = (q ⟨0, by decide⟩).val :=
  D.rhsIdx_val_of_single rfl i q
theorem rhs1 (i : S5000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- Entry (0, r, p) of what the body stores: the row `r` of the loaded rows times the column `p` of the loaded weight. -/
theorem pay_apply (x0 : FVec Ideal S1x5000x128 .bf16) (x1 : FVec Ideal S1x128x128 .bf16) (r : Fin 5000) (p : Fin 128) :
    k0_pay1 (F := Ideal) x0 x1 (ix3 (0 : Fin 1) r p) = ∑ q : Fin 128, x0 (ix3 (0 : Fin 1) r q) * x1 (ix3 (0 : Fin 1) q p) := by
  have hr := r.isLt; have hp := p.isLt
  show shapeCast S1x5000x128 (truncf .bf16 (matmul D none (shapeCast S5000x128 x0 shapeCasts_S1x5000x128_S5000x128)
      (shapeCast S128x128 x1 shapeCasts_S1x128x128_S128x128) (constant (F := Ideal) S5000x128 .f32 0x00000000#32)) bitsLt_bf16_f32)
      shapeCasts_S5000x128_S1x5000x128 (ix3 (0 : Fin 1) r p) = _
  refine (shapeCast_apply _ shapeCasts_S5000x128_S1x5000x128 (ix3 (0 : Fin 1) r p) (ix2 r p) ?_).trans ?_
  · rw [Shape.rowMajor_val_two, Shape.rowMajor_val_three]
    show r.val * 128 + p.val = (0 * 5000 + r.val) * 128 + p.val
    omega
  show FloatOps.matmul D none (shapeCast S5000x128 x0 shapeCasts_S1x5000x128_S5000x128)
      (shapeCast S128x128 x1 shapeCasts_S1x128x128_S128x128) (constant (F := Ideal) S5000x128 .f32 0x00000000#32) (ix2 r p) = _
  rw [Ideal.matmul_constant_zero_apply, ← Equiv.sum_comp (contrEquiv1 D 128 rfl rfl).symm]
  refine Finset.sum_congr rfl fun q _ => ?_
  have hq := contrEquiv1_symm_val D 128 rfl rfl q
  have hqlt := q.isLt
  congr 1
  · refine shapeCast_apply x0 _ _ (ix3 (0 : Fin 1) r q) ?_
    rw [Shape.rowMajor_val_three, Shape.rowMajor_val_two, lhs0, lhs1, hq]
    show (0 * 5000 + r.val) * 128 + q.val = r.val * 128 + q.val
    omega
  · refine shapeCast_apply x1 _ _ (ix3 (0 : Fin 1) q p) ?_
    rw [Shape.rowMajor_val_three, Shape.rowMajor_val_two, rhs0, rhs1, hq]
    show (0 * 128 + q.val) * 128 + p.val = q.val * 128 + p.val
    omega

/-- The same at any index of the block: its leading coordinate is `0`. -/
theorem pay_at (x0 : FVec Ideal S1x5000x128 .bf16) (x1 : FVec Ideal S1x128x128 .bf16) (y : S1x5000x128.Idx) :
    k0_pay1 (F := Ideal) x0 x1 y
      = ∑ q : Fin 128, x0 (ix3 (n0 := 1) (n1 := 5000) (n2 := 128) 0 (y 1) q) * x1 (ix3 (n0 := 1) (n1 := 128) (n2 := 128) 0 q (y 2)) := by
  have hy0 : (y 0).val = 0 := by have : (y 0).val < 1 := (y 0).isLt; omega
  have hy : y = ix3 (n0 := 1) (n1 := 5000) (n2 := 128) 0 (y 1) (y 2) := funext fun a => match a with
    | ⟨0, _⟩ => Fin.ext hy0
    | ⟨1, _⟩ => rfl
    | ⟨2, _⟩ => rfl
  exact (congrArg (k0_pay1 (F := Ideal) x0 x1) hy).trans (pay_apply x0 x1 (y 1) (y 2))

end Cert.KernelIdeal.Payload

end
-- ==== Proof.KernelBlocks.lean ====
/-
  From blocks to the array: what the region leaves in its output array.

  The grid has 27 × 5 points; point (k, b) reads rows `5000 b … 5000 b + 4999` of offset `k` of the packed gathered rows,
  the whole 128 × 128 weight of offset `k`, and writes the same rows of offset `k` of the output. So the block a point
  writes back is a block of ONE function of the two input arrays, `product`: entry (k, r, p) is
  `∑ q < 128, rows (k, r, q) · weight (k, q, p)`; the 135 blocks tile the output; hence the output array ends at
  `product` (`final`).
-/
import proofs.«141573_j88373247082550_2_alg».proof.Proof.Gen.KernelIdeal.Frame
import proofs.«141573_j88373247082550_2_alg».proof.Proof.KernelPayload
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.KernelIdeal.Payload
open Idealize.ShloMosaic.Pipeline (Dat)

variable (m : (ℓ : Loc nD τ sig) → Buf (Elt Ideal) ℓ)

theorem hz3 : (![0, 0, 0] : Fin 3 → Nat) = fun _ => 0 := funext fun a => by fin_cases a <;> rfl

/-- The region's first input array as it finds it (the packed rows), as a function into the extended reals. -/
def rowsIn (c : Dev nD) : S27x25000x128.Idx → EReal := V m c (Pipeline.arrRef spec0 0)
/-- Its second input array (the 128 × 128 weights). -/
def wtIn (c : Dev nD) : S27x128x128.Idx → EReal := V m c (Pipeline.arrRef spec0 1)

/-- The product of the region's two input arrays: per offset, packed rows times the 128 × 128 weight. -/
def product (c : Dev nD) : S27x25000x128.Idx → EReal := fun i =>
  ∑ q : Fin 128, rowsIn m c (ix3 (n0 := 27) (n1 := 25000) (n2 := 128) (i 0) (i 1) q)
    * wtIn m c (ix3 (n0 := 27) (n1 := 128) (n2 := 128) (i 0) q (i 2))

theorem product_apply (c : Dev nD) (i : S27x25000x128.Idx) :
    product m c i = ∑ q : Fin 128, rowsIn m c (ix3 (n0 := 27) (n1 := 25000) (n2 := 128) (i 0) (i 1) q)
      * wtIn m c (ix3 (n0 := 27) (n1 := 128) (n2 := 128) (i 0) q (i 2)) := rfl

/-- A block of an array, read through its window at a point, holds the array's entries under the block: stated for ANY
    array, so that nothing is ever computed from the arrays the region finds. -/
theorem read_blk0 (A : S27x25000x128.Idx → EReal) (t : Fin cfg0.N) (x : S1x5000x128.Idx) :
    ((cfg0.win 0).blk t).view.read (Elt Ideal) A x = A (((cfg0.win 0).blk t).view.emb x) := rfl
theorem read_blk1 (B : S27x128x128.Idx → EReal) (t : Fin cfg0.N) (x : S1x128x128.Idx) :
    ((cfg0.win 1).blk t).view.read (Elt Ideal) B x = B (((cfg0.win 1).blk t).view.emb x) := rfl
theorem read_blk2 (P : S27x25000x128.Idx → EReal) (t : Fin cfg0.N) (x : S1x5000x128.Idx) :
    ((cfg0.win 2).blk t).view.read (Elt Ideal) P x = P (((cfg0.win 2).blk t).view.emb x) := rfl

/-- The rows' block at a point, read at an index. -/
theorem rows_block (c : Dev nD) (t : Fin cfg0.N) (x : S1x5000x128.Idx) :
    (iblk m c 0 t : Vec Ideal S1x5000x128 .bf16) x = rowsIn m c (((cfg0.win 0).blk t).view.emb x) := by
  unfold iblk rowsIn
  exact read_blk0 _ t x
/-- The weight's block at a point, read at an index. -/
theorem wt_block (c : Dev nD) (t : Fin cfg0.N) (x : S1x128x128.Idx) :
    (iblk m c 1 t : Vec Ideal S1x128x128 .bf16) x = wtIn m c (((cfg0.win 1).blk t).view.emb x) := by
  unfold iblk wtIn
  exact read_blk1 _ t x

/-- The printed index maps, decided over the grid: the rows' block and the output's block move together over (offset, row
    block); the weight's block follows the offset alone; the lane axis is never cut. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0 ∧ win0_1.index t (0 : Fin 3) = win0_2.index t (0 : Fin 3)
    ∧ win0_1.index t (1 : Fin 3) = 0 ∧ win0_1.index t (2 : Fin 3) = 0 ∧ win0_2.index t (2 : Fin 3) = 0
    ∧ win0_2.index t (0 : Fin 3) ≤ 26 ∧ win0_2.index t (1 : Fin 3) ≤ 4 :=
  (by decide +kernel : ∀ t : Fin grid0.N, _)

/-- Every (offset, row block) is some point's. -/
theorem idx_onto : ∀ (q0 : Fin 27) (q1 : Fin 5), ∃ t : Fin cfg0.N, win0_2.index t = ![q0.val, q1.val, 0] :=
  (by decide +kernel : ∀ (q0 : Fin 27) (q1 : Fin 5), ∃ t : Fin grid0.N, win0_2.index t = ![q0.val, q1.val, 0])

/-- WHAT POINT `t` WRITES BACK is block `t` of `product`. -/
theorem flushed_eq (c : Dev nD) (t : Fin cfg0.N) :
    (dats m 0 c).flushed 2 t = ((cfg0.win 2).blk t).view.read (Elt Ideal) (product m c) := by
  show (cfg0.win 2).cut (grid0.coords t) ((dats m 0 c).after 2 t) = _
  rw [after0_2]
  unfold out0_2
  rw [View.canon_unit_zero hz3]
  simp only [View.ld_unit_zero (S := S1x5000x128) hz3, View.ld_unit_zero (S := S1x128x128) hz3]
  obtain ⟨e0, e1, e2, e3, e4, e5, e6, e7, e8⟩ := idx_facts t
  funext y
  have hy0 : (y 0).val = 0 := by have : (y 0).val < 1 := (y 0).isLt; omega
  have hy1 : (y 1).val < 5000 := (y 1).isLt
  have hy2 : (y 2).val < 128 := (y 2).isLt
  refine (pay_at (iblk m c 0 t) (iblk m c 1 t) y).trans ?_
  rw [read_blk2 (product m c) t y, product_apply]
  refine Finset.sum_congr rfl fun q _ => ?_
  have hq : q.val < 128 := q.isLt
  rw [rows_block, wt_block]
  have h0 : ((cfg0.win 0).blk t).view.emb (ix3 (n0 := 1) (n1 := 5000) (n2 := 128) 0 (y 1) q)
      = ix3 (n0 := 27) (n1 := 25000) (n2 := 128) ((((cfg0.win 2).blk t).view.emb y) 0) ((((cfg0.win 2).blk t).view.emb y) 1) q := by
    funext a; apply Fin.ext
    match a with
    | ⟨0, _⟩ => show win0_0.index t (0 : Fin 3) * 1 + 1 * 0 = win0_2.index t (0 : Fin 3) * 1 + 1 * (y 0).val; omega
    | ⟨1, _⟩ => show win0_0.index t (1 : Fin 3) * 5000 + 1 * (y 1).val = win0_2.index t (1 : Fin 3) * 5000 + 1 * (y 1).val; omega
    | ⟨2, _⟩ => show win0_0.index t (2 : Fin 3) * 128 + 1 * q.val = q.val; omega
  have h1 : ((cfg0.win 1).blk t).view.emb (ix3 (n0 := 1) (n1 := 128) (n2 := 128) 0 q (y 2))
      = ix3 (n0 := 27) (n1 := 128) (n2 := 128) ((((cfg0.win 2).blk t).view.emb y) 0) q ((((cfg0.win 2).blk t).view.emb y) 2) := by
    funext a; apply Fin.ext
    match a with
    | ⟨0, _⟩ => show win0_1.index t (0 : Fin 3) * 1 + 1 * 0 = win0_2.index t (0 : Fin 3) * 1 + 1 * (y 0).val; omega
    | ⟨1, _⟩ => show win0_1.index t (1 : Fin 3) * 128 + 1 * q.val = q.val; omega
    | ⟨2, _⟩ => show win0_1.index t (2 : Fin 3) * 128 + 1 * (y 2).val = win0_2.index t (2 : Fin 3) * 128 + 1 * (y 2).val; omega
  rw [h0, h1]

/-- An index of the output array is in point `t`'s block iff each coordinate is in the block's range on its axis. -/
theorem mem_blk (t : Fin cfg0.N) (i : S27x25000x128.Idx) :
    i ∈ ((cfg0.win 2).blk t).view.set ↔ ∀ a : Fin 3, win0_2.index t a * S1x5000x128.size a ≤ (i a).val ∧ (i a).val < win0_2.index t a * S1x5000x128.size a + S1x5000x128.size a := by
  show i ∈ ((View.whole main_v15).slice (win0_2.rect t)).set ↔ _
  rw [View.set_slice_whole, Rect.mem_set_unit]
  exact Iff.rfl

/-- The blocks tile the output: entry (k, r, p) is in the block of the point with offset `k` and row block `r / 5000`. -/
theorem cover (i : S27x25000x128.Idx) :
    ∃ t : Fin cfg0.N, (cfg0.win 2).flush t = true ∧ i ∈ ((cfg0.win 2).blk t).view.set := by
  have hi0 : (i 0).val < 27 := (i 0).isLt
  have hi1 : (i 1).val < 25000 := (i 1).isLt
  have hi2 : (i 2).val < 128 := (i 2).isLt
  obtain ⟨t, ht⟩ := idx_onto ⟨(i 0).val, hi0⟩ ⟨(i 1).val / 5000, by omega⟩
  have q0 : win0_2.index t (0 : Fin 3) = (i 0).val := congrFun ht 0
  have q1 : win0_2.index t (1 : Fin 3) = (i 1).val / 5000 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 5000 ≤ (i 1).val ∧ (i 1).val < win0_2.index t (1 : Fin 3) * 5000 + 5000; omega
  | ⟨2, _⟩ => show win0_2.index t (2 : Fin 3) * 128 ≤ (i 2).val ∧ (i 2).val < win0_2.index t (2 : Fin 3) * 128 + 128; omega

/-- THE OUTPUT ARRAY after the run is `product`. -/
theorem final (c : Dev nD) : (dats m 0 c).arrAt 2 cfg0.N = product m c :=
  (dats m 0 c).arrAt_eq_of_cover 2 (product m c) (fun t _ => flushed_eq m c t) (cover)

end Cert.KernelIdeal.Blocks

end
-- ==== Proof.Spec.lean ====
/-
  Sparse 3-D convolution by rulebook: the mathematics shared by both programs, over abstract arrays.

  Rule `n` (of 27 · 50000 = 1350000) takes the gathered input row `Gd n` (64 channels) and multiplies it by the
  weight matrix of its kernel offset `n / 50000`; the products are scatter-added into the output rows.
  * `upd` is the array of per-rule products: `upd n o = ∑ c, Gd n c · W (n / 50000) c o`.
  * `scatterAdd_init`: a scatter-add into an initial array `b` is the scatter-add into zeros, plus `b`
    (addition of extended reals is commutative and `0 + x = x`; no finiteness is needed).
  * `packedUpd` is `upd` laid out two rules per row of 128 lanes ([27, 25000, 128]): entry (k, r, p) is the update of
    rule `(k · 25000 + r) · 2 + p / 64` at channel `p % 64`.
  * `contract_blockdiag`: the contraction of the packed gathered rows with the block-diagonal weight is `packedUpd`.
  * `sum_blockdiag`: a sum over 128 = 2 · 64 contraction indices whose terms vanish on one half is the sum over the
    other half — the contraction against a block-diagonal weight `[[W, 0], [0, W]]`, where `x · 0 = 0` on every
    extended real.
-/
import Idealize.ShloMosaic.PureOps.Ideal
import Idealize.ShloMosaic.PureOps.Ideal.Laws
import Idealize.ShloMosaic.Lib.ValueIdx

noncomputable section

namespace Cert.SparseConv

open Idealize.ShloMosaic Idealize.ShloMosaic.ValueIdx

/-- The rows the rules gather, and the updates they scatter: 1350000 rules × 64 channels. -/
abbrev SRows : Shape := ⟨2, ![1350000, 64]⟩
/-- The weights: 27 kernel offsets, 64 input channels, 64 output channels. -/
abbrev SWt : Shape := ⟨3, ![27, 64, 64]⟩

/-- The kernel offset of rule `n`: rules are grouped 50000 per offset. -/
def offsetOf (n : Fin 1350000) : Fin 27 := ⟨n.val / 50000, by have := n.isLt; omega⟩

theorem offsetOf_val (n : Fin 1350000) : (offsetOf n).val = n.val / 50000 := rfl

/-- The update of rule `n` at output channel `o`: the gathered row times the weight matrix of the rule's offset. -/
def upd (Gd : SRows.Idx → EReal) (W : SWt.Idx → EReal) : SRows.Idx → EReal :=
  fun j => ∑ c : Fin 64, Gd (ix2 (n0 := 1350000) (n1 := 64) (j 0) c) * W (ix3 (n0 := 27) (n1 := 64) (n2 := 64) (offsetOf (j 0)) c (j 1))

theorem upd_apply (Gd : SRows.Idx → EReal) (W : SWt.Idx → EReal) (n : Fin 1350000) (o : Fin 64) :
    upd Gd W (ix2 n o) = ∑ c : Fin 64, Gd (ix2 n c) * W (ix3 (offsetOf n) c o) := rfl

/-- A scatter-add that starts from `b` is the scatter-add that starts from zeros, plus `b`: at every element both are
    `b i` plus the sum of the updates landing on `i`. -/
theorem scatterAdd_init {s si su : Shape} {w : Nat} {φ : FTy} (d : ScatterDims s si su) (b z : FVec Ideal s φ)
    (idx : IVec si w) (u : FVec Ideal su φ) (hz : ∀ i, z i = 0) :
    Host.scatterAdd d b idx u = addf (Host.scatterAdd d z idx u) b := by
  funext i
  show b i + _ = (z i + _) + b i
  rw [hz, zero_add, add_comm]

/-- A sum over `Fin 128` is the sum over its lower half plus the sum over its upper half. -/
theorem sum_two_halves (f : Fin 128 → EReal) :
    ∑ q : Fin 128, f q = ∑ c : Fin 64, f ⟨c.val, by have := c.isLt; omega⟩ + ∑ c : Fin 64, f ⟨64 + c.val, by have := c.isLt; omega⟩ :=
  Fin.sum_univ_add (a := 64) (b := 64) f

/-- The block-diagonal contraction: if the terms of a sum over `q < 128` are `h (q % 64)` on the half `q / 64 = a`
    and zero on the other half, the sum is `∑ c < 64, h c`. -/
theorem sum_blockdiag (f : Fin 128 → EReal) (h : Fin 64 → EReal) (a : Nat)
    (hd : ∀ q : Fin 128, q.val / 64 = a → f q = h ⟨q.val % 64, Nat.mod_lt _ (by decide)⟩)
    (ho : ∀ q : Fin 128, q.val / 64 ≠ a → f q = 0) (ha : a < 2) :
    ∑ q : Fin 128, f q = ∑ c : Fin 64, h c := by
  rw [sum_two_halves]
  have hlo : ∀ c : Fin 64, (⟨c.val, by have := c.isLt; omega⟩ : Fin 128).val / 64 = 0 := fun c => by
    have := c.isLt; show c.val / 64 = 0; omega
  have hhi : ∀ c : Fin 64, (⟨64 + c.val, by have := c.isLt; omega⟩ : Fin 128).val / 64 = 1 := fun c => by
    have := c.isLt; show (64 + c.val) / 64 = 1; omega
  have mlo : ∀ c : Fin 64, (⟨(⟨c.val, by have := c.isLt; omega⟩ : Fin 128).val % 64, Nat.mod_lt _ (by decide)⟩ : Fin 64) = c := fun c =>
    Fin.ext (by have := c.isLt; show c.val % 64 = c.val; omega)
  have mhi : ∀ c : Fin 64, (⟨(⟨64 + c.val, by have := c.isLt; omega⟩ : Fin 128).val % 64, Nat.mod_lt _ (by decide)⟩ : Fin 64) = c := fun c =>
    Fin.ext (by have := c.isLt; show (64 + c.val) % 64 = c.val; omega)
  obtain rfl | rfl : a = 0 ∨ a = 1 := by omega
  · rw [Finset.sum_congr rfl (fun c _ => (hd _ (hlo c)).trans (congrArg h (mlo c))),
      Finset.sum_congr rfl (fun c _ => ho _ (by rw [hhi c]; decide)), Finset.sum_const_zero, add_zero]
  · rw [Finset.sum_congr rfl (fun c _ => ho _ (by rw [hlo c]; decide)),
      Finset.sum_congr rfl (fun c _ => (hd _ (hhi c)).trans (congrArg h (mhi c))), Finset.sum_const_zero, zero_add]

/-- The packed layout: two consecutive rules share one row of 128 lanes. -/
abbrev SPacked : Shape := ⟨3, ![27, 25000, 128]⟩
/-- The rules grouped by kernel offset. -/
abbrev SMid : Shape := ⟨3, ![27, 50000, 64]⟩
/-- The block-diagonal weights: per offset a 128 × 128 matrix. -/
abbrev SBd : Shape := ⟨3, ![27, 128, 128]⟩

/-- The rule whose update sits at lane `q` of packed row `(k, r)`. -/
def rowOf (k : Fin 27) (r : Fin 25000) (q : Fin 128) : Fin 1350000 :=
  ⟨(k.val * 25000 + r.val) * 2 + q.val / 64, by have := k.isLt; have := r.isLt; have := q.isLt; omega⟩
/-- Its channel. -/
def chanOf (q : Fin 128) : Fin 64 := ⟨q.val % 64, Nat.mod_lt _ (by decide)⟩

theorem rowOf_val (k : Fin 27) (r : Fin 25000) (q : Fin 128) : (rowOf k r q).val = (k.val * 25000 + r.val) * 2 + q.val / 64 := rfl
theorem chanOf_val (q : Fin 128) : (chanOf q).val = q.val % 64 := rfl

/-- The rule of a packed entry belongs to the entry's kernel offset. -/
theorem offsetOf_rowOf (k : Fin 27) (r : Fin 25000) (q : Fin 128) : offsetOf (rowOf k r q) = k :=
  Fin.ext (by have := k.isLt; have := r.isLt; have := q.isLt; show ((k.val * 25000 + r.val) * 2 + q.val / 64) / 50000 = k.val; omega)

/-- The updates in the packed layout. -/
def packedUpd (Gd : SRows.Idx → EReal) (W : SWt.Idx → EReal) : SPacked.Idx → EReal :=
  fun i => upd Gd W (ix2 (rowOf (i 0) (i 1) (i 2)) (chanOf (i 2)))

theorem packedUpd_apply (Gd : SRows.Idx → EReal) (W : SWt.Idx → EReal) (k : Fin 27) (r : Fin 25000) (p : Fin 128) :
    packedUpd Gd W (ix3 k r p) = ∑ c : Fin 64, Gd (ix2 (rowOf k r p) c) * W (ix3 k c (chanOf p)) := by
  show upd Gd W (ix2 (rowOf k r p) (chanOf p)) = _
  rw [upd_apply, offsetOf_rowOf]

/-- Contracting a packed row of two gathered rows with the block-diagonal weight `B = [[W, 0], [0, W]]` gives, at lane
    `p`, the product of the gathered row of half `p / 64` with `W` at channel `p % 64`: the other half meets zeros. -/
theorem contract_blockdiag (Gd : SRows.Idx → EReal) (W : SWt.Idx → EReal) (B : SBd.Idx → EReal)
    (hB : ∀ (k : Fin 27) (q p : Fin 128), B (ix3 k q p) = if q.val / 64 = p.val / 64 then W (ix3 k (chanOf q) (chanOf p)) else 0)
    (k : Fin 27) (r : Fin 25000) (p : Fin 128) :
    ∑ q : Fin 128, Gd (ix2 (rowOf k r q) (chanOf q)) * B (ix3 k q p) = packedUpd Gd W (ix3 k r p) := by
  rw [packedUpd_apply]
  refine sum_blockdiag _ (fun c => Gd (ix2 (rowOf k r p) c) * W (ix3 k c (chanOf p))) (p.val / 64) (fun q hq => ?_) (fun q hq => ?_)
    (by have := p.isLt; omega)
  · rw [hB, if_pos hq]
    have e : rowOf k r q = rowOf k r p := Fin.ext (by rw [rowOf_val, rowOf_val, hq])
    rw [e]; rfl
  · rw [hB, if_neg hq, mul_zero]

end Cert.SparseConv

end
-- ==== Proof.Layout.lean ====
/-
  Layout: the reshapes between the three arrangements of the rules' rows, and the block-diagonal weight, each read at an
  index.

  * [1350000, 64] → [27, 50000, 64] → [27, 25000, 128] (`unpack_apply`): packed entry (k, r, q) is row
    `(k · 25000 + r) · 2 + q / 64`, channel `q % 64` — the row-major position is the same number.
  * back, [27, 25000, 128] → [27, 50000, 64] → [1350000, 64] (`repack_apply`): row `n`, channel `o` is packed entry
    (n / 50000, n % 50000 / 2, (n % 2) · 64 + o); on `packedUpd` this round trip gives `upd` (`repack_packedUpd`).
  * the block-diagonal weight `[[X, Z], [Z, X]]` (two concatenations along the lanes, one along the rows) at (k, q, p)
    is `X (k, q % 64, p % 64)` when `q` and `p` lie in the same half, and the filler `z` otherwise
    (`blockDiag_apply`).
-/
import proofs.«141573_j88373247082550_2_alg».proof.Proof.Spec
import Idealize.ShloMosaic.Lib.Pipeline.Value

noncomputable section

namespace Cert.SparseConv

open Idealize.ShloMosaic Idealize.ShloMosaic.ValueIdx

variable {α : Type}

/-- Half of the block-diagonal weight: 64 rows of 128 lanes per offset. -/
abbrev SHalf : Shape := ⟨3, ![27, 64, 128]⟩

theorem unpack_apply (X : SRows.Idx → α) (h1 : SRows.ShapeCasts SMid) (h2 : SMid.ShapeCasts SPacked)
    (k : Fin 27) (r : Fin 25000) (q : Fin 128) :
    shapeCast SPacked (shapeCast SMid X h1) h2 (ix3 k r q) = X (ix2 (rowOf k r q) (chanOf q)) := by
  have hk := k.isLt; have hr := r.isLt; have hq := q.isLt
  refine (shapeCast_apply _ h2 (ix3 k r q) (ix3 k (⟨2 * r.val + q.val / 64, by omega⟩ : Fin 50000) (chanOf q)) ?_).trans ?_
  · rw [Shape.rowMajor_val_three, Shape.rowMajor_val_three]
    show (k.val * 50000 + (2 * r.val + q.val / 64)) * 64 + q.val % 64 = (k.val * 25000 + r.val) * 128 + q.val
    omega
  · refine shapeCast_apply X h1 _ (ix2 (rowOf k r q) (chanOf q)) ?_
    rw [Shape.rowMajor_val_two, Shape.rowMajor_val_three]
    show ((k.val * 25000 + r.val) * 2 + q.val / 64) * 64 + q.val % 64 = (k.val * 50000 + (2 * r.val + q.val / 64)) * 64 + q.val % 64
    omega

theorem repack_apply (Y : SPacked.Idx → α) (h3 : SPacked.ShapeCasts SMid) (h4 : SMid.ShapeCasts SRows)
    (n : Fin 1350000) (o : Fin 64) :
    shapeCast SRows (shapeCast SMid Y h3) h4 (ix2 n o)
      = Y (ix3 (offsetOf n) (⟨n.val % 50000 / 2, by omega⟩ : Fin 25000) (⟨n.val % 2 * 64 + o.val, by have := o.isLt; omega⟩ : Fin 128)) := by
  have hn := n.isLt; have ho := o.isLt
  refine (shapeCast_apply _ h4 (ix2 n o) (ix3 (offsetOf n) (⟨n.val % 50000, Nat.mod_lt _ (by decide)⟩ : Fin 50000) o) ?_).trans ?_
  · rw [Shape.rowMajor_val_three, Shape.rowMajor_val_two]
    show (n.val / 50000 * 50000 + n.val % 50000) * 64 + o.val = n.val * 64 + o.val
    omega
  · refine shapeCast_apply Y h3 _ _ ?_
    rw [Shape.rowMajor_val_three, Shape.rowMajor_val_three]
    show (n.val / 50000 * 25000 + n.val % 50000 / 2) * 128 + (n.val % 2 * 64 + o.val) = (n.val / 50000 * 50000 + n.val % 50000) * 64 + o.val
    omega

/-- The packed updates, reshaped back to one rule per row, are the updates. -/
theorem repack_packedUpd (Gd : SRows.Idx → EReal) (W : SWt.Idx → EReal) (h3 : SPacked.ShapeCasts SMid) (h4 : SMid.ShapeCasts SRows) :
    shapeCast SRows (shapeCast SMid (packedUpd Gd W) h3) h4 = upd Gd W := by
  funext j
  obtain ⟨n, o, rfl⟩ : ∃ (n : Fin 1350000) (o : Fin 64), j = ix2 n o := ⟨j 0, j 1, eq_ix2 j⟩
  have hn := n.isLt; have ho := o.isLt
  rw [repack_apply]
  have e1 : rowOf (offsetOf n) (⟨n.val % 50000 / 2, by omega⟩ : Fin 25000) (⟨n.val % 2 * 64 + o.val, by omega⟩ : Fin 128) = n :=
    Fin.ext (by show (n.val / 50000 * 25000 + n.val % 50000 / 2) * 2 + (n.val % 2 * 64 + o.val) / 64 = n.val; omega)
  have e2 : chanOf (⟨n.val % 2 * 64 + o.val, by omega⟩ : Fin 128) = o :=
    Fin.ext (by show (n.val % 2 * 64 + o.val) % 64 = o.val; omega)
  show upd Gd W (ix2 (rowOf (offsetOf n) (⟨n.val % 50000 / 2, by omega⟩ : Fin 25000) (⟨n.val % 2 * 64 + o.val, by omega⟩ : Fin 128))
    (chanOf (⟨n.val % 2 * 64 + o.val, by omega⟩ : Fin 128))) = _
  rw [e1, e2]

theorem blockDiag_apply (X Z : SWt.Idx → α) (z : α) (hZ : ∀ i, Z i = z)
    (hc2 : Shape.Concatenates [SWt, SWt] SHalf 2) (hc1 : Shape.Concatenates [SHalf, SHalf] SBd 1)
    (k : Fin 27) (q p : Fin 128) :
    concatenate SBd 1 [⟨SHalf, concatenate SHalf 2 [⟨SWt, X⟩, ⟨SWt, Z⟩] hc2⟩,
        ⟨SHalf, concatenate SHalf 2 [⟨SWt, Z⟩, ⟨SWt, X⟩] hc2⟩] hc1 (ix3 k q p)
      = if q.val / 64 = p.val / 64 then X (ix3 k (chanOf q) (chanOf p)) else z := by
  have hq := q.isLt; have hp := p.isLt
  by_cases hq64 : q.val < 64
  · have eq : (⟨q.val, hq64⟩ : Fin 64) = chanOf q := Fin.ext (by show q.val = q.val % 64; omega)
    refine (concatenate_pair_apply_left (t := SBd) (s₁ := SHalf) (s₂ := SHalf) (1 : Fin 3) _ _ hc1 (ix3 k q p) rfl (ix3 k (⟨q.val, hq64⟩ : Fin 64) p)
      (fun b => match b with | ⟨0, _⟩ => rfl | ⟨1, _⟩ => rfl | ⟨2, _⟩ => rfl)).trans ?_
    by_cases hp64 : p.val < 64
    · have ep : (⟨p.val, hp64⟩ : Fin 64) = chanOf p := Fin.ext (by show p.val = p.val % 64; omega)
      refine (concatenate_pair_apply_left (t := SHalf) (s₁ := SWt) (s₂ := SWt) (2 : Fin 3) X Z hc2 _ rfl (ix3 k (⟨q.val, hq64⟩ : Fin 64) (⟨p.val, hp64⟩ : Fin 64))
        (fun b => match b with | ⟨0, _⟩ => rfl | ⟨1, _⟩ => rfl | ⟨2, _⟩ => rfl)).trans ?_
      rw [if_pos (by omega), eq, ep]
    · refine (concatenate_pair_apply_right (t := SHalf) (s₁ := SWt) (s₂ := SWt) (2 : Fin 3) X Z hc2 _ rfl rfl (ix3 k (⟨q.val, hq64⟩ : Fin 64) (⟨p.val - 64, by omega⟩ : Fin 64))
        (fun b hb => match b, hb with | ⟨0, _⟩, _ => rfl | ⟨1, _⟩, _ => rfl | ⟨2, _⟩, hb => absurd rfl hb)
        (by show p.val - 64 + 64 = p.val; omega)).trans ?_
      rw [hZ, if_neg (by omega)]
  · have eq : (⟨q.val - 64, by omega⟩ : Fin 64) = chanOf q := Fin.ext (by show q.val - 64 = q.val % 64; omega)
    refine (concatenate_pair_apply_right (t := SBd) (s₁ := SHalf) (s₂ := SHalf) (1 : Fin 3) _ _ hc1 (ix3 k q p) rfl rfl (ix3 k (⟨q.val - 64, by omega⟩ : Fin 64) p)
      (fun b hb => match b, hb with | ⟨0, _⟩, _ => rfl | ⟨1, _⟩, hb => absurd rfl hb | ⟨2, _⟩, _ => rfl)
      (by show q.val - 64 + 64 = q.val; omega)).trans ?_
    by_cases hp64 : p.val < 64
    · refine (concatenate_pair_apply_left (t := SHalf) (s₁ := SWt) (s₂ := SWt) (2 : Fin 3) Z X hc2 _ rfl (ix3 k (⟨q.val - 64, by omega⟩ : Fin 64) (⟨p.val, hp64⟩ : Fin 64))
        (fun b => match b with | ⟨0, _⟩ => rfl | ⟨1, _⟩ => rfl | ⟨2, _⟩ => rfl)).trans ?_
      rw [hZ, if_neg (by omega)]
    · have ep : (⟨p.val - 64, by omega⟩ : Fin 64) = chanOf p := Fin.ext (by show p.val - 64 = p.val % 64; omega)
      refine (concatenate_pair_apply_right (t := SHalf) (s₁ := SWt) (s₂ := SWt) (2 : Fin 3) Z X hc2 _ rfl rfl (ix3 k (⟨q.val - 64, by omega⟩ : Fin 64) (⟨p.val - 64, by omega⟩ : Fin 64))
        (fun b hb => match b, hb with | ⟨0, _⟩, _ => rfl | ⟨1, _⟩, _ => rfl | ⟨2, _⟩, hb => absurd rfl hb)
        (by show p.val - 64 + 64 = p.val; omega)).trans ?_
      rw [if_pos (by omega), eq, ep]

end Cert.SparseConv

end
-- ==== Proof.KernelHost.lean ====
/-
  The kernel's host side, before the region: what the region finds in its two input arrays.

  * `gathered x₀ x₃`: the rows of the input `x₀` the rule table `x₃` names, one per rule (the gather takes the table
    with negative entries wrapped round, `wrapIdx`, and the input after a change of float format, which is the identity on
    the extended reals). The gather itself is never opened: both programs gather the same rows.
  * `V_rows`: the region's first input is these rows reshaped twice, to [27, 50000, 64] and then to [27, 25000, 128]
    — two consecutive rules per row of 128 lanes; `rows_apply` reads it at an index.
  * `V_wt`: its second input is the block-diagonal weight `[[W, 0], [0, W]]` per kernel offset;
    `wt_apply` reads it at an index: `W (k, q % 64, p % 64)` when `q` and `p` lie in the same half, zero otherwise.
-/
import proofs.«141573_j88373247082550_2_alg».proof.Proof.Gen.KernelIdeal.Frame
import proofs.«141573_j88373247082550_2_alg».proof.Proof.Layout
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx Cert.SparseConv

/-- A rule table as the gather and the scatter take it: a negative entry wrapped round by 150000, as a column. -/
def wrapIdx (x : (⟨S1350000, .i32⟩ : BufTy).Contents (Elt Ideal)) : (⟨S1350000x1, .i32⟩ : BufTy).Contents (Elt Ideal) :=
  broadcastInDim S1350000x1 ![0] bcast_S1350000_S1350000x1_0
    (select (cmpi .slt x (broadcastInDim S1350000 ![] bcast_S_S1350000 (constantI S_ 32 0#32)))
      (addi x (broadcastInDim S1350000 ![] bcast_S_S1350000 (constantI S_ 32 150000#32))) x)

/-- The gathered rows: row `n` is the row of `x₀` that entry `n` of the rule table names. -/
def gathered (x0 : (⟨S150000x64, .f32⟩ : BufTy).Contents (Elt Ideal)) (x3 : (⟨S1350000, .i32⟩ : BufTy).Contents (Elt Ideal)) :
    (⟨S1350000x64, .bf16⟩ : BufTy).Contents (Elt Ideal) :=
  ((fun x i => Host.gather gather_S150000x64_S1350000x1_S1350000x64_1_0_n_n_0_1_164 x i) :
      (⟨S150000x64, .bf16⟩ : BufTy).Contents (Elt Ideal) → (⟨S1350000x1, .i32⟩ : BufTy).Contents (Elt Ideal) → (⟨S1350000x64, .bf16⟩ : BufTy).Contents (Elt Ideal))
    (((truncf (F := Ideal) .bf16 · bitsLt_bf16_f32) : (⟨S150000x64, .f32⟩ : BufTy).Contents (Elt Ideal) → (⟨S150000x64, .bf16⟩ : BufTy).Contents (Elt Ideal)) x0)
    (wrapIdx x3)

/-- The zero filler of the block-diagonal weight. -/
def zeros : (⟨S27x64x64, .f32⟩ : BufTy).Contents (Elt Ideal) :=
  broadcastInDim S27x64x64 ![] bcast_S_S27x64x64 (constant (F := Ideal) S_ .f32 0x00000000#32)

theorem zeros_apply (i : S27x64x64.Idx) : zeros i = 0 := by
  show Ideal.ofBits .f32 0x00000000#32 = 0
  exact Ideal.ofBits_zero_f32

/-- The block-diagonal weight: per offset `[[W, 0], [0, W]]`. -/
def blockDiag (x1 : (⟨S27x64x64, .f32⟩ : BufTy).Contents (Elt Ideal)) : (⟨S27x128x128, .bf16⟩ : BufTy).Contents (Elt Ideal) :=
  ((truncf (F := Ideal) .bf16 · bitsLt_bf16_f32) : (⟨S27x128x128, .f32⟩ : BufTy).Contents (Elt Ideal) → (⟨S27x128x128, .bf16⟩ : BufTy).Contents (Elt Ideal))
    (((fun a b => concatenate S27x128x128 1 [⟨S27x64x128, a⟩, ⟨S27x64x128, b⟩] concatenates_S27x64x128_S27x64x128_S27x128x128_d1) :
        (⟨S27x64x128, .f32⟩ : BufTy).Contents (Elt Ideal) → (⟨S27x64x128, .f32⟩ : BufTy).Contents (Elt Ideal) → (⟨S27x128x128, .f32⟩ : BufTy).Contents (Elt Ideal))
      (((fun a b => concatenate S27x64x128 2 [⟨S27x64x64, a⟩, ⟨S27x64x64, b⟩] concatenates_S27x64x64_S27x64x64_S27x64x128_d2) :
        (⟨S27x64x64, .f32⟩ : BufTy).Contents (Elt Ideal) → (⟨S27x64x64, .f32⟩ : BufTy).Contents (Elt Ideal) → (⟨S27x64x128, .f32⟩ : BufTy).Contents (Elt Ideal)) x1 zeros)
      (((fun a b => concatenate S27x64x128 2 [⟨S27x64x64, a⟩, ⟨S27x64x64, b⟩] concatenates_S27x64x64_S27x64x64_S27x64x128_d2) :
        (⟨S27x64x64, .f32⟩ : BufTy).Contents (Elt Ideal) → (⟨S27x64x64, .f32⟩ : BufTy).Contents (Elt Ideal) → (⟨S27x64x128, .f32⟩ : BufTy).Contents (Elt Ideal)) zeros x1))

/-- The packed gathered rows. -/
def packedRows (x0 : (⟨S150000x64, .f32⟩ : BufTy).Contents (Elt Ideal)) (x3 : (⟨S1350000, .i32⟩ : BufTy).Contents (Elt Ideal)) :
    (⟨S27x25000x128, .bf16⟩ : BufTy).Contents (Elt Ideal) :=
  shapeCast _ (shapeCast _ (gathered x0 x3) shapeCasts_S1350000x64_S27x50000x64) shapeCasts_S27x50000x64_S27x25000x128

theorem rows_apply (x0 : (⟨S150000x64, .f32⟩ : BufTy).Contents (Elt Ideal)) (x3 : (⟨S1350000, .i32⟩ : BufTy).Contents (Elt Ideal))
    (k : Fin 27) (r : Fin 25000) (q : Fin 128) :
    packedRows x0 x3 (ix3 k r q) = gathered x0 x3 (ix2 (rowOf k r q) (chanOf q)) :=
  unpack_apply (gathered x0 x3) shapeCasts_S1350000x64_S27x50000x64 shapeCasts_S27x50000x64_S27x25000x128 k r q

theorem wt_apply (x1 : (⟨S27x64x64, .f32⟩ : BufTy).Contents (Elt Ideal)) (k : Fin 27) (q p : Fin 128) :
    blockDiag x1 (ix3 k q p) = if q.val / 64 = p.val / 64 then x1 (ix3 k (chanOf q) (chanOf p)) else 0 :=
  blockDiag_apply (α := EReal) x1 zeros 0 zeros_apply concatenates_S27x64x64_S27x64x64_S27x64x128_d2
    concatenates_S27x64x128_S27x64x128_S27x128x128_d1 k q p

/-- The bias row repeated down the 150000 output rows: the array the kernel's scatter-add starts from. -/
def biasRows (x2 : (⟨S64, .f32⟩ : BufTy).Contents (Elt Ideal)) : (⟨S150000x64, .f32⟩ : BufTy).Contents (Elt Ideal) :=
  broadcastInDim S150000x64 ![0, 1] bcast_S1x64_S150000x64_0_1 (broadcastInDim S1x64 ![1] bcast_S64_S1x64_1 x2)

/-- The kernel program's result as one function of its five arguments: the updates of the gathered rows, scatter-added
    into the bias rows at the (wrapped) output table. -/
def result (x0 : (⟨S150000x64, .f32⟩ : BufTy).Contents (Elt Ideal)) (x1 : (⟨S27x64x64, .f32⟩ : BufTy).Contents (Elt Ideal))
    (x2 : (⟨S64, .f32⟩ : BufTy).Contents (Elt Ideal)) (x3 x4 : (⟨S1350000, .i32⟩ : BufTy).Contents (Elt Ideal)) :
    (⟨S150000x64, .f32⟩ : BufTy).Contents (Elt Ideal) :=
  Host.scatterAdd (F := Ideal) (φ := .f32) scatter_S150000x64_S1350000x1_S1350000x64_1_0_0_1 (biasRows x2) (wrapIdx x4)
    (upd (gathered x0 x3) x1)

variable (m : (ℓ : Loc nD τ sig) → Buf (Elt Ideal) ℓ)

set_option maxHeartbeats 2000000 in
/-- The region's first input array: the packed gathered rows of the arguments as launched. -/
theorem V_rows (c : Dev nD) :
    V m c main_v14 = packedRows (m ((c.tc : Thread nD τ).loc main_arg0)) (m ((c.tc : Thread nD τ).loc main_arg3)) := by
  show StableHlo.after hostOps0 (fun b => m (c, b)) (Proc.devRef .tc main_v14) = _
  after_results
  rfl

/-- The region's second input array: the block-diagonal weight of the argument as launched. -/
theorem V_wt (c : Dev nD) : V m c main_v5 = blockDiag (m ((c.tc : Thread nD τ).loc main_arg1)) := by
  show StableHlo.after hostOps0 (fun b => m (c, b)) (Proc.devRef .tc main_v5) = _
  after_results
  rfl

end Cert.KernelIdeal.HostSide

end
-- ==== Proof.KernelTail.lean ====
/-
  The kernel program's result: the region's output array, then the host operations after it.

  * `product_eq`: the region's output (`Blocks.product`: packed rows times block-diagonal weight) is `packedUpd` of the
    gathered rows and the weights — the zero blocks of the weight remove the other rule of each packed row
    (`contract_blockdiag`).
  * `tail_eq`: after the region the program reshapes the output back to one rule per row (which gives `upd`,
    `repack_packedUpd`; the change of float format is the identity) and scatter-adds it into the bias rows: `result`.
  * `run`: every weakly fair execution ends with the result buffer at `result` of the arguments, the arguments unchanged.
-/
import proofs.«141573_j88373247082550_2_alg».proof.Proof.KernelBlocks
import proofs.«141573_j88373247082550_2_alg».proof.Proof.KernelHost

set_option maxRecDepth 16384

noncomputable section

namespace Cert.KernelIdeal.Tail

open Cert.KernelIdeal Cert.KernelIdeal.Gen Idealize.ShloMosaic Idealize.ShloMosaic.TcCoe Idealize.SL.Sem
open Idealize.ShloMosaic.StableHlo Idealize.ShloMosaic.ValueIdx Cert.SparseConv
open Cert.KernelIdeal.HostSide Cert.KernelIdeal.Blocks

variable (m : (ℓ : Loc nD τ sig) → Buf (Elt Ideal) ℓ)

/-- The region's output array as a function of the arguments: the packed updates. -/
theorem product_eq (c : Dev nD) :
    product m c = packedUpd (gathered (m ((c.tc : Thread nD τ).loc main_arg0)) (m ((c.tc : Thread nD τ).loc main_arg3)))
      (m ((c.tc : Thread nD τ).loc main_arg1)) := by
  funext i
  obtain ⟨k, r, p, rfl⟩ : ∃ (k : Fin 27) (r : Fin 25000) (p : Fin 128), i = ix3 k r p := ⟨i 0, i 1, i 2, eq_ix3 i⟩
  show ∑ q : Fin 128, rowsIn m c (ix3 k r q) * wtIn m c (ix3 k q p) = _
  have hr : rowsIn m c = packedRows (m ((c.tc : Thread nD τ).loc main_arg0)) (m ((c.tc : Thread nD τ).loc main_arg3)) := V_rows m c
  have hw : wtIn m c = blockDiag (m ((c.tc : Thread nD τ).loc main_arg1)) := V_wt m c
  rw [hr, hw]
  exact Eq.trans (Finset.sum_congr rfl fun q _ => by rw [rows_apply])
    (contract_blockdiag (gathered (m ((c.tc : Thread nD τ).loc main_arg0)) (m ((c.tc : Thread nD τ).loc main_arg3)))
      (m ((c.tc : Thread nD τ).loc main_arg1)) (blockDiag (m ((c.tc : Thread nD τ).loc main_arg1)))
      (wt_apply (m ((c.tc : Thread nD τ).loc main_arg1))) k r p)

set_option maxHeartbeats 2000000 in
/-- The program's result buffer after the host operations that follow the region. -/
theorem tail_eq (c : Dev nD) :
    Pipeline.afterTail₀ cfgs (dats m) 0 (V0 m) [hostOps1] c main_v27
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  have e2 : Pipeline.withArrays (cfgs 0).spec c (V0 m c) (fun w => (dats m 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans (V_main_arg2 m c)
  have e4 : Pipeline.withArrays (cfgs 0).spec c (V0 m c) (fun w => (dats m 0 c).arrAt w (cfgs 0).N) (Proc.devRef .tc main_arg4)
      = m ((c.tc : Thread nD τ).loc main_arg4) :=
    (Pipeline.withArrays_of_ne _ c (V0 m c) _ main_arg4 (by exact (by decide : ∀ w, Pipeline.arrRef spec0 w ≠ main_arg4))).trans (V_main_arg4 m c)
  have e15 : Pipeline.withArrays (cfgs 0).spec c (V0 m c) (fun w => (dats m 0 c).arrAt w (cfgs 0).N) (Proc.devRef .tc main_v15)
      = packedUpd (gathered (m ((c.tc : Thread nD τ).loc main_arg0)) (m ((c.tc : Thread nD τ).loc main_arg3))) (m ((c.tc : Thread nD τ).loc main_arg1)) :=
    (Pipeline.withArrays_arr spec0 launch0.win.arr_inj c _ _ 2).trans ((final m c).trans (product_eq m c))
  unfold Pipeline.afterTail₀
  show StableHlo.after hostOps1 _ (Proc.devRef .tc main_v27) = _
  after_results
  rw [e2, e4, e15]
  exact congrArg (fun u => Host.scatterAdd (F := Ideal) (φ := .f32) scatter_S150000x64_S1350000x1_S1350000x64_1_0_0_1
      (biasRows (m ((c.tc : Thread nD τ).loc main_arg2))) (wrapIdx (m ((c.tc : Thread nD τ).loc main_arg4))) u)
    (repack_packedUpd (gathered (m ((c.tc : Thread nD τ).loc main_arg0)) (m ((c.tc : Thread nD τ).loc main_arg3)))
      (m ((c.tc : Thread nD τ).loc main_arg1)) shapeCasts_S27x25000x128_S27x50000x64 shapeCasts_S27x50000x64_S1350000x64)

/-- The kernel program's run, with its result named: every weakly fair execution terminates, nothing faulting, with the
    result buffer at `result` of the argument arrays and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v27)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v27 (Pipeline.mem_restRefs_of main_v27 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Tail

end
-- ==== Proof.RefValue.lean ====
/-
  The reference's side: its updates are `upd` of the rows it gathers, and its result is the scatter-add of them that starts
  from the bias.

  The reference gathers the rows, groups them by kernel offset ([27, 50000, 64]), multiplies each group by its
  offset's weight matrix (one batched contraction over the 64 input channels), flattens the products back to one
  row per rule, scatter-adds them into zeros and finally adds the bias row to every output row. Read at rule `n`,
  channel `o`: the two reshapes keep the row-major position, so the product is
  `∑ c, gathered (n, c) · W (n / 50000, c, o)` (`updates_eq`); and adding the bias after scattering into zeros is
  scattering into the bias (`result_eq`, by `scatterAdd_init`).
-/
import proofs.«141573_j88373247082550_2_alg».proof.Proof.Gen.ReferenceIdeal.Read
import proofs.«141573_j88373247082550_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.SparseConv

/-- The reference's per-rule products are `upd` of its gathered rows and the weights. -/
theorem updates_eq (x0 : (⟨S150000x64, .f32⟩ : BufTy).Contents (Elt Ideal)) (x1 : (⟨S27x64x64, .f32⟩ : BufTy).Contents (Elt Ideal))
    (x3 : (⟨S1350000, .i32⟩ : BufTy).Contents (Elt Ideal)) :
    val_main_v10 (F := Ideal) x0 x1 x3 = upd (val_main_v6 (F := Ideal) x0 x3) x1 := by
  funext j
  obtain ⟨n, o, rfl⟩ : ∃ (n : Fin 1350000) (o : Fin 64), j = ix2 n o := ⟨j 0, j 1, eq_ix2 j⟩
  have hn := n.isLt; have ho := o.isLt
  rw [val_main_v10_apply, val_main_v8_apply, upd_apply]
  refine Finset.sum_congr rfl fun c _ => ?_
  have hc := c.isLt
  rw [val_main_v7_apply]
  have e0 : idx_main_v7 (lidx_main_v8 (idx_main_v10 (ix2 n o)) c) = ix2 n c := by
    funext a; apply Fin.ext
    match a with
    | ⟨0, _⟩ =>
      show ((((n.val * 64 + o.val) / 3200000) * 50000 + (n.val * 64 + o.val) / 64 % 50000) * 64 + c.val) / 64 = n.val
      omega
    | ⟨1, _⟩ =>
      show ((((n.val * 64 + o.val) / 3200000) * 50000 + (n.val * 64 + o.val) / 64 % 50000) * 64 + c.val) % 64 = c.val
      omega
  have e1 : ridx_main_v8 (idx_main_v10 (ix2 n o)) c = ix3 (offsetOf n) c o := by
    funext a; apply Fin.ext
    match a with
    | ⟨0, _⟩ => show (n.val * 64 + o.val) / 3200000 = n.val / 50000; omega
    | ⟨1, _⟩ => rfl
    | ⟨2, _⟩ => show (n.val * 64 + o.val) % 64 = o.val; omega
  rw [e0, e1]

/-- The scatter's initial array is zero everywhere. -/
theorem zero_init (i : S150000x64.Idx) : val_main_v9 (F := Ideal) i = 0 := by
  rw [val_main_v9_apply, val_main_cst_apply]
  exact Ideal.ofBits_zero_f32

/-- The reference's result: the updates scatter-added into the bias rows. -/
theorem result_eq (x0 : (⟨S150000x64, .f32⟩ : BufTy).Contents (Elt Ideal)) (x1 : (⟨S27x64x64, .f32⟩ : BufTy).Contents (Elt Ideal))
    (x2 : (⟨S64, .f32⟩ : BufTy).Contents (Elt Ideal)) (x3 x4 : (⟨S1350000, .i32⟩ : BufTy).Contents (Elt Ideal)) :
    val_main_v20 (F := Ideal) x0 x1 x2 x3 x4
      = Host.scatterAdd (F := Ideal) (φ := .f32) scatter_S150000x64_S1350000x1_S1350000x64_1_0_0_1 (val_main_v19 (F := Ideal) x2)
          (val_main_v16 (F := Ideal) x4) (upd (val_main_v6 (F := Ideal) x0 x3) x1) := by
  unfold val_main_v20 val_main_v17
  rw [updates_eq]
  exact (scatterAdd_init (φ := .f32) scatter_S150000x64_S1350000x1_S1350000x64_1_0_0_1 (val_main_v19 (F := Ideal) x2)
    (val_main_v9 (F := Ideal)) (val_main_v16 (F := Ideal) x4) _ zero_init).symm

end Cert.ReferenceIdeal.RefValue

end
-- ==== Proof.Bridge.lean ====
/-
  The bridge: the kernel program's result and the reference's result are one function of the five arguments.

  Both programs wrap the two rule tables the same way, gather the same rows (a change of float format before the gather
  is the identity on the extended reals), and scatter-add with the same dimension numbers; the kernel starts the
  scatter from the bias rows, the reference adds them afterwards (`RefValue.result_eq`); and both update arrays are
  `upd` of the gathered rows and the weights. So the two closed terms differ only in how the same operations are spelt.
-/
import proofs.«141573_j88373247082550_2_alg».proof.Proof.KernelHost
import proofs.«141573_j88373247082550_2_alg».proof.Proof.RefValue

noncomputable section

namespace Cert.Bridge

open Idealize.ShloMosaic Cert.SparseConv

/-- The gathered rows of the two programs. -/
theorem gathered_eq (x0 : (⟨Cert.KernelIdeal.S150000x64, .f32⟩ : BufTy).Contents (Elt Ideal))
    (x3 : (⟨Cert.KernelIdeal.S1350000, .i32⟩ : BufTy).Contents (Elt Ideal)) :
    Cert.KernelIdeal.HostSide.gathered x0 x3 = Cert.ReferenceIdeal.Read.val_main_v6 (F := Ideal) x0 x3 := rfl

/-- The wrapped output table of the two programs. -/
theorem wrap_eq (x4 : (⟨Cert.KernelIdeal.S1350000, .i32⟩ : BufTy).Contents (Elt Ideal)) :
    Cert.KernelIdeal.HostSide.wrapIdx x4 = Cert.ReferenceIdeal.Read.val_main_v16 (F := Ideal) x4 := rfl

/-- The bias rows of the two programs. -/
theorem bias_eq (x2 : (⟨Cert.KernelIdeal.S64, .f32⟩ : BufTy).Contents (Elt Ideal)) :
    Cert.KernelIdeal.HostSide.biasRows x2 = Cert.ReferenceIdeal.Read.val_main_v19 (F := Ideal) x2 := rfl

/-- The scatter's dimension numbers of the two programs. -/
theorem dims_eq : Cert.KernelIdeal.scatter_S150000x64_S1350000x1_S1350000x64_1_0_0_1
    = Cert.ReferenceIdeal.scatter_S150000x64_S1350000x1_S1350000x64_1_0_0_1 := rfl

/-- The kernel program's result is the reference's, as functions of the arguments. -/
theorem result_eq (x0 : (⟨Cert.KernelIdeal.S150000x64, .f32⟩ : BufTy).Contents (Elt Ideal))
    (x1 : (⟨Cert.KernelIdeal.S27x64x64, .f32⟩ : BufTy).Contents (Elt Ideal))
    (x2 : (⟨Cert.KernelIdeal.S64, .f32⟩ : BufTy).Contents (Elt Ideal))
    (x3 x4 : (⟨Cert.KernelIdeal.S1350000, .i32⟩ : BufTy).Contents (Elt Ideal)) :
    Cert.ReferenceIdeal.Read.val_main_v20 (F := Ideal) x0 x1 x2 x3 x4 = Cert.KernelIdeal.HostSide.result x0 x1 x2 x3 x4 := by
  rw [Cert.ReferenceIdeal.RefValue.result_eq]
  unfold Cert.KernelIdeal.HostSide.result
  rw [gathered_eq, wrap_eq, bias_eq, dims_eq]

end Cert.Bridge

end
-- ==== Proof.lean ====
/-
  Sparse 3-D convolution by rulebook (27 kernel offsets × 50000 rules; 64 → 64 channels; 150000 sites):
  `out[s, o] = bias[o] + ∑ {n : out_idx[n] = s} ∑ c, x[in_idx[n], c] · W[n / 50000, c, o]`.

  The kernel program gathers the rows the rule table names, packs two consecutive rules into one row of 128 lanes,
  multiplies each packed row (in blocks of 5000 rows, on a 27 × 5 grid) by the block-diagonal weight `[[W, 0], [0, W]]`
  of its offset, unpacks, and scatter-adds the products into an array that starts at the bias. The reference gathers
  the same rows, multiplies each group of 50000 rows by its offset's weight directly, scatter-adds into zeros and adds
  the bias at the end.

  On the extended reals the two agree for every input: a product with the zero block is `0` and `0 + x = x`, so the
  128-term contraction is the 64-term one (Spec.lean `contract_blockdiag`); the reshapes keep row-major positions
  (Layout.lean); and a scatter-add from `b` is the scatter-add from zeros plus `b`, by commutativity of the sum
  (Spec.lean `scatterAdd_init`). Changes of float format are the identity. No finiteness of the inputs is used, and
  neither the gather nor the scatter is ever opened: both programs apply them to equal operands.

  Modules: Spec (the mathematics over abstract arrays) · Layout (reshapes and the block-diagonal weight at an index) ·
  KernelPayload (the body's matrix product at an index) · KernelHost (what the region finds in its inputs) ·
  KernelBlocks (the region's output array from its 135 blocks) · KernelTail (the host operations after the region, and
  the kernel program's run) · RefValue (the reference's result) · Bridge (the two results are one function).
  The ideal pass rewrote nothing, so `preserves` is `True`.
-/
import proofs.«141573_j88373247082550_2_alg».proof.Defs
import proofs.«141573_j88373247082550_2_alg».proof.Proof.Gen.Kernel
import proofs.«141573_j88373247082550_2_alg».proof.Proof.Gen.Kernel.Skeleton
import proofs.«141573_j88373247082550_2_alg».proof.Proof.Gen.Kernel.Launch
import proofs.«141573_j88373247082550_2_alg».proof.Proof.Gen.Kernel.Points
import proofs.«141573_j88373247082550_2_alg».proof.Proof.Gen.Kernel.Frame
import proofs.«141573_j88373247082550_2_alg».proof.Proof.Gen.KernelIdeal
import proofs.«141573_j88373247082550_2_alg».proof.Proof.Gen.KernelIdeal.Skeleton
import proofs.«141573_j88373247082550_2_alg».proof.Proof.Gen.KernelIdeal.Launch
import proofs.«141573_j88373247082550_2_alg».proof.Proof.Gen.KernelIdeal.Points
import proofs.«141573_j88373247082550_2_alg».proof.Proof.Gen.KernelIdeal.Frame
import proofs.«141573_j88373247082550_2_alg».proof.Proof.Gen.ReferenceIdeal
import proofs.«141573_j88373247082550_2_alg».proof.Proof.Gen.Pre_finite_inputs
import proofs.«141573_j88373247082550_2_alg».proof.Proof.Gen.ReferenceIdeal.Run
import proofs.«141573_j88373247082550_2_alg».proof.Proof.Gen.ReferenceIdeal.Read
import proofs.«141573_j88373247082550_2_alg».proof.Proof.KernelTail
import proofs.«141573_j88373247082550_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as they were. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the same result array: the kernel program's is
    `HostSide.result` of its arguments (`Tail.run`), the reference's is the same function of its own (`Bridge.result_eq`). -/
theorem algebraic : Cert.algebraic_KernelIdeal_ReferenceIdeal := by
  intro m ρ m' ρ' _ hagree
  refine ⟨fun c => Cert.KernelIdeal.HostSide.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2.1, (hagree c).2.2.1, (hagree c).2.2.2.1,
    (hagree c).2.2.2.2]
  exact Cert.Bridge.result_eq _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
